-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S2048x256 : Shape := ⟨2, ![2048, 256]⟩
abbrev S2048x1 : Shape := ⟨2, ![2048, 1]⟩
abbrev S256x256 : Shape := ⟨2, ![256, 256]⟩
abbrev S256x1 : Shape := ⟨2, ![256, 1]⟩
abbrev S256 : Shape := ⟨1, ![256]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x1, .f32⟩
  | .hbm, ⟨3, _⟩ => ⟨S_, .f32⟩
  | .hbm, ⟨4, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x1, .f32⟩
  | .local _ .vmem, ⟨5, _⟩ => ⟨S256x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S2048x1_S_d0_1 : S2048x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S2048x256.size a
  hwx0_1 : ∀ i : grid0.Coords, EltTy.bits .f32 = 32 ∨ (Rect.block (s := S2048x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S2048 : Shape := ⟨1, ![2048]⟩
abbrev S2048x256x1 : Shape := ⟨3, ![2048, 256, 1]⟩
abbrev S2048x1x256 : Shape := ⟨3, ![2048, 1, 256]⟩
abbrev S2048x256x256 : Shape := ⟨3, ![2048, 256, 256]⟩

abbrev nBuf : Space → Nat
  | .hbm => 29
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S_, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048x256, .f32⟩
  | .hbm, ⟨10, _⟩ => ⟨S2048x256, .f32⟩
  | .hbm, ⟨11, _⟩ => ⟨S2048x256x1, .f32⟩
  | .hbm, ⟨12, _⟩ => ⟨S2048x1x256, .f32⟩
  | .hbm, ⟨13, _⟩ => ⟨S2048x256x256, .f32⟩
  | .hbm, ⟨14, _⟩ => ⟨S2048x256x256, .f32⟩
  | .hbm, ⟨15, _⟩ => ⟨S2048x256x256, .f32⟩
  | .hbm, ⟨16, _⟩ => ⟨S2048x256x1, .f32⟩
  | .hbm, ⟨17, _⟩ => ⟨S2048x1x256, .f32⟩
  | .hbm, ⟨18, _⟩ => ⟨S2048x256x256, .f32⟩
  | .hbm, ⟨19, _⟩ => ⟨S2048x256x256, .f32⟩
  | .hbm, ⟨20, _⟩ => ⟨S2048x256x256, .f32⟩
  | .hbm, ⟨21, _⟩ => ⟨S2048x256x256, .f32⟩
  | .hbm, ⟨22, _⟩ => ⟨S2048x256x256, .f32⟩
  | .hbm, ⟨23, _⟩ => ⟨S2048x256x256, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S_S2048 : S_.BroadcastsInDim S2048 (![] : Fin 0 → Fin S2048.rank)
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S2048x256_S2048x1x256_0_2 : S2048x256.BroadcastsInDim S2048x1x256 (![0, 2] : Fin 2 → Fin S2048x1x256.rank)
  bcast_S2048x256x1_S2048x256x256_0_1_2 : S2048x256x1.BroadcastsInDim S2048x256x256 (![0, 1, 2] : Fin 3 → Fin S2048x256x256.rank)
  bcast_S2048x1x256_S2048x256x256_0_1_2 : S2048x1x256.BroadcastsInDim S2048x256x256 (![0, 1, 2] : Fin 3 → Fin S2048x256x256.rank)
  reducesTo_S2048x256x256_S2048_d1_2 : S2048x256x256.ReducesTo [1, 2] S2048
  reducesTo_S2048_S_d0 : S2048.ReducesTo [0] S_

variable [Facts₀]

class Facts : Prop extends Facts₀ where

variable [Facts]
-- ==== Proof.RankLossSpec.lean ====
/-
  The pairwise ranking loss of a batch of rows, as ONE function of the score array `x` and the label array `t`.

  For one row with scores `x k` and labels `t k` (k < 256) the loss is

      ( ∑ k, t k · e^(0 - x k) ) · ( ∑ l, (1 - t l) · e^(x l) )  /  ( (∑ k, t k) · (256 - ∑ k, t k) ),

  and the batch's loss is the sum of the rows' losses. The pairwise form of the numerator,

      ∑ k, ∑ l, e^(-(x k - x l)) · ( t k · (1 - t l) ),

  is the same number when every score and label is a real: e^(-(a - b)) = e^(0 - a) · e^b, and a double sum of
  products of a k-factor and an l-factor is the product of the two sums. On the extended reals neither step holds at
  the infinities (e^(+∞) · e^(-∞) is not e^0, and a product does not distribute over a sum of opposite infinities), so
  the law is stated for arrays of reals. Also here: a sum over the rank-3 indices whose first coordinate is fixed is the
  double sum over the other two coordinates.
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.RankLoss

open Idealize.ShloMosaic Idealize.ShloMosaic.ValueIdx

/-- The float pattern of 1.0, read as an extended real. -/
abbrev one : EReal := Ideal.ofBits .f32 0x3F800000#32
/-- The float pattern of 256.0 (the number of labels), read as an extended real. -/
abbrev nLabels : EReal := Ideal.ofBits .f32 0x43800000#32

/-- The pattern of 1.0 denotes the real number 1. -/
theorem one_eq : one = ((1 : ℝ) : EReal) := by
  show Ideal.ofBits .f32 (IdealRules.sign_bit.onePat .f32) = _
  rw [IdealRules.sign_bit.ideal_onePat]; rfl

/-- One row's loss from its scores and labels: the product of the positives' sum of e^(-x) and the negatives' sum of
    e^x, over (number of positives) · (number of labels - number of positives). -/
def rowLoss (x t : Fin 256 → EReal) : EReal :=
  Ideal.div ((∑ k, t k * Ideal.exp (0 - x k)) * (∑ l, (one - t l) * Ideal.exp (x l)))
    ((∑ k, t k) * (nLabels - ∑ k, t k))

/-- The batch's loss: the sum over the 2048 rows of each row's loss. -/
def total (x t : (⟨2, ![2048, 256]⟩ : Shape).Idx → EReal) : EReal :=
  ∑ b : Fin 2048, rowLoss (fun k => x (ix2 b k)) (fun k => t (ix2 b k))

/-! ## Sums -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    fun i => congrArg f (eq_ix1 i)

/-- A sum over the index set of a column (extents n and 1) is the sum over the rows. -/
theorem sum_idx_col {M : Type*} [AddCommMonoid M] {n : Nat} (f : (⟨2, ![n, 1]⟩ : Shape).Idx → M) :
    ∑ i, f i = ∑ a : Fin n, f (ix2 a 0) := by
  rw [sum_idx2]
  exact Finset.sum_congr rfl fun a _ => Fin.sum_univ_one _

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the rank-3 indices picked out by a predicate that says "the first coordinate is `b`" is the double
    sum over the second and third coordinates at that first coordinate. -/
theorem sum_filter_first {M : Type*} [AddCommMonoid M] {n0 n1 n2 : Nat} (p : (⟨3, ![n0, n1, n2]⟩ : Shape).Idx → Prop)
    [DecidablePred p] (b : Fin n0) (hp : ∀ i, p i ↔ i 0 = b) (f : (⟨3, ![n0, n1, n2]⟩ : Shape).Idx → M) :
    ∑ i ∈ Finset.univ.filter p, f i = ∑ k : Fin n1, ∑ l : Fin n2, f (ix3 b k l) := by
  rw [Finset.sum_filter, sum_idx3]
  have e : ∀ a : Fin n0, (∑ k : Fin n1, ∑ l : Fin n2, if p (ix3 a k l) then f (ix3 a k l) else 0)
      = if a = b then ∑ k : Fin n1, ∑ l : Fin n2, f (ix3 a k l) else 0 := by
    intro a
    have hpa : ∀ (k : Fin n1) (l : Fin n2), p (ix3 a k l) ↔ a = b := fun k l => hp (ix3 a k l)
    by_cases h : a = b
    · rw [if_pos h]
      exact Finset.sum_congr rfl fun k _ => Finset.sum_congr rfl fun l _ => if_pos ((hpa k l).mpr h)
    · rw [if_neg h]
      exact Finset.sum_eq_zero fun k _ => Finset.sum_eq_zero fun l _ => if_neg fun hh => h ((hpa k l).mp hh)
  simp only [e, Finset.sum_ite_eq', Finset.mem_univ, if_true]

/-! ## The law: the pairwise double sum factors, on arrays of reals -/

/-- For a row of real scores and real labels the pairwise sum of e^(-(x k - x l)) · (t k · (1 - t l)) over all pairs
    (k, l) is the product of the positives' sum and the negatives' sum. -/
theorem pair_sum_factor {n : Nat} (x t : Fin n → EReal) (hx : ∀ k, ∃ r : ℝ, x k = (r : EReal))
    (ht : ∀ k, ∃ r : ℝ, t k = (r : EReal)) :
    ∑ k, ∑ l, Ideal.exp (-(x k - x l)) * (t k * (one - t l))
      = (∑ k, t k * Ideal.exp (0 - x k)) * (∑ l, (one - t l) * Ideal.exp (x l)) := by
  choose xr hxr using hx
  choose tr htr using ht
  have e0 : (0 : EReal) = ((0 : ℝ) : EReal) := rfl
  have eP : ∀ k, t k * Ideal.exp (0 - x k) = ((tr k * Real.exp (0 - xr k) : ℝ) : EReal) := fun k => by
    rw [hxr, htr, e0, ← EReal.coe_sub, Ideal.exp_coe, ← EReal.coe_mul]
  have eN : ∀ l, (one - t l) * Ideal.exp (x l) = (((1 - tr l) * Real.exp (xr l) : ℝ) : EReal) := fun l => by
    rw [hxr, htr, one_eq, ← EReal.coe_sub, Ideal.exp_coe, ← EReal.coe_mul]
  have eM : ∀ k l, Ideal.exp (-(x k - x l)) * (t k * (one - t l))
      = (((tr k * Real.exp (0 - xr k)) * ((1 - tr l) * Real.exp (xr l)) : ℝ) : EReal) := fun k l => by
    rw [hxr, hxr, htr, htr, one_eq, ← EReal.coe_sub, ← EReal.coe_neg, Ideal.exp_coe, ← EReal.coe_sub, ← EReal.coe_mul,
      ← EReal.coe_mul]
    refine congrArg _ ?_
    rw [show -(xr k - xr l) = (0 - xr k) + xr l by ring, Real.exp_add]
    ring
  simp only [eP, eN, eM, ← coe_sum, ← EReal.coe_mul]
  rw [Finset.sum_mul_sum]

end Cert.RankLoss

end
-- ==== Proof.RefValue.lean ====
/-
  What the reference computes, read at the extended reals: the batch's ranking loss `RankLoss.total` of its two arguments,
  when every score and label is a real.

  The reference forms, for each row b and each pair (k, l) of labels, e^(-(x[b,k] - x[b,l])) · (t[b,k] · (1 - t[b,l])),
  sums over all pairs of the row, divides by (∑ t[b,·]) · (256 - ∑ t[b,·]) and sums over the rows. The sum over the pairs of
  one row is a sum over the rank-3 indices with first coordinate b, hence a double sum over (k, l); on real entries that
  double sum factors into the product of the positives' sum and the negatives' sum (`RankLoss.pair_sum_factor`), which is
  the numerator of `RankLoss.rowLoss`. The initial value of every sum is the pattern of 0.0, the extended real 0.
-/
import proofs.«115836_j20693152432248_1_alg».proof.Proof.Gen.ReferenceIdeal.Read
import proofs.«115836_j20693152432248_1_alg».proof.Proof.RankLossSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.RankLoss

/-- The pairwise term at row b and pair (k, l). -/
theorem pair_term (x0 x1 : (⟨S2048x256, .f32⟩ : BufTy).Contents (Elt Ideal)) (b : Fin 2048) (k l : Fin 256) :
    val_main_v18 (F := Ideal) x0 x1 (ix3 b k l)
      = Ideal.exp (-(x0 (ix2 b k) - x0 (ix2 b l))) * (x1 (ix2 b k) * (one - x1 (ix2 b l))) := by
  have e6 : idx_main_v6 (idx_main_v8 (ix3 b k l)) = ix2 b k :=
    funext fun a => Fin.ext (by match a with | ⟨0, _⟩ => rfl | ⟨1, _⟩ => rfl)
  have e7 : idx_main_v7 (idx_main_v9 (ix3 b k l)) = ix2 b l :=
    funext fun a => Fin.ext (by match a with | ⟨0, _⟩ => rfl | ⟨1, _⟩ => rfl)
  have e11 : idx_main_v11 (idx_main_v13 (ix3 b k l)) = ix2 b k :=
    funext fun a => Fin.ext (by match a with | ⟨0, _⟩ => rfl | ⟨1, _⟩ => rfl)
  have e12 : idx_main_v12 (idx_main_v14 (ix3 b k l)) = ix2 b l :=
    funext fun a => Fin.ext (by match a with | ⟨0, _⟩ => rfl | ⟨1, _⟩ => rfl)
  rw [val_main_v18_apply, val_main_v17_apply, val_main_v16_apply, val_main_v10_apply, val_main_v8_apply, val_main_v6_apply,
    val_main_v9_apply, val_main_v7_apply, val_main_v15_apply, val_main_v13_apply, val_main_v11_apply, val_main_v14_apply,
    val_main_v12_apply, val_main_v5_apply, val_main_v4_apply, val_main_cst_1_apply, e6, e7, e11, e12]
  rfl

/-- A rank-3 index reduces into row b exactly when its first coordinate is b. -/
theorem drop_eq_iff (b : Fin 2048) (i : S2048x256x256.Idx) :
    reducesTo_S2048x256x256_S2048_d1_2.drop i = ix1 b ↔ i 0 = b := by
  have hv : ((reducesTo_S2048x256x256_S2048_d1_2.drop i) 0 : Nat) = i 0 :=
    Shape.ReducesTo.drop_apply_val_of_eq reducesTo_S2048x256x256_S2048_d1_2 i 0 0
  constructor
  · intro e
    apply Fin.ext
    rw [← hv, e]
  · intro e
    funext d
    match d with
    | ⟨0, _⟩ => exact Fin.ext (hv.trans (congrArg Fin.val e))

/-- The sum over the pairs of row b. -/
theorem pairs_eq (x0 x1 : (⟨S2048x256, .f32⟩ : BufTy).Contents (Elt Ideal)) (b : Fin 2048) :
    val_main_v19 (F := Ideal) x0 x1 (ix1 b)
      = ∑ k : Fin 256, ∑ l : Fin 256, Ideal.exp (-(x0 (ix2 b k) - x0 (ix2 b l))) * (x1 (ix2 b k) * (one - x1 (ix2 b l))) := by
  unfold val_main_v19
  simp only [Host.reduceAdd, Ideal.hostReduceAdd_def]
  unfold Ideal.hostReduceAdd
  rw [sum_filter_first _ b (drop_eq_iff b)]
  rw [val_main_cst_2_apply, Ideal.ofBits_def, Ideal.ofBits_zero_f32, zero_add]
  exact Finset.sum_congr rfl fun k _ => Finset.sum_congr rfl fun l _ => pair_term x0 x1 b k l

/-- The divisor of row b: (number of positives) · (256 - number of positives). -/
theorem norm_eq (x1 : (⟨S2048x256, .f32⟩ : BufTy).Contents (Elt Ideal)) (b : Fin 2048) :
    val_main_v3 (F := Ideal) x1 (ix1 b) = (∑ k : Fin 256, x1 (ix2 b k)) * (nLabels - ∑ k : Fin 256, x1 (ix2 b k)) := by
  have e0 : ∀ k : Fin 256, idx_main_v0 (ix1 b) k = ix2 b k := fun k =>
    funext fun a => Fin.ext (by match a with | ⟨0, _⟩ => rfl | ⟨1, _⟩ => rfl)
  rw [val_main_v3_apply, val_main_v2_apply, val_main_v1_apply, val_main_cst_0_apply, val_main_v0_apply, val_main_cst_apply]
  simp only [e0, Ideal.mulf_def, Ideal.subf_def, Ideal.ofBits_def, Ideal.ofBits_zero_f32, zero_add]

/-- THE REFERENCE'S RESULT on arrays of reals is the batch's loss. -/
theorem result_eq (x0 x1 : (⟨S2048x256, .f32⟩ : BufTy).Contents (Elt Ideal))
    (h0 : ∀ i, ∃ r : ℝ, x0 i = (r : EReal)) (h1 : ∀ i, ∃ r : ℝ, x1 i = (r : EReal)) (i : S_.Idx) :
    val_main_v21 (F := Ideal) x0 x1 i = total x0 x1 := by
  rw [val_main_v21_apply, val_main_cst_3_apply, Ideal.ofBits_def, Ideal.ofBits_zero_f32, zero_add, sum_idx1]
  unfold total
  refine Finset.sum_congr rfl fun b _ => ?_
  rw [val_main_v20_apply, Ideal.hostDivf_def, pairs_eq, norm_eq,
    pair_sum_factor (fun k => x0 (ix2 b k)) (fun k => x1 (ix2 b k)) (fun k => h0 _) (fun k => h1 _)]
  rfl

end Cert.ReferenceIdeal.RefValue

end
-- ==== Proof.KernelRow.lean ====
/-
  What the kernel's body stores, read at the extended reals at one row of a block.

  The body holds a 256-by-256 block of scores `x` and of labels `t`. Along each row it sums t · e^(0 - x), (1 - t) · e^x
  and t (three lane sums, each kept as a column of height 256), multiplies the first two columns and divides by
  (third) · (256 - third). So at row p of the block — the only column being 0 — the stored value is the row's loss
  `RankLoss.rowLoss` of the block's row p. The steps that are not pointwise: a lane sum read at a row is the sum over the
  row's entries, and the cast of a length-256 vector to a 256-by-1 column keeps entry p at (p, 0).
-/
import proofs.«115836_j20693152432248_1_alg».proof.Proof.Gen.KernelIdeal.Skeleton
import proofs.«115836_j20693152432248_1_alg».proof.Proof.RankLossSpec
import Idealize.ShloMosaic.Lib.ValueIdx
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx
open Cert.RankLoss

/-- A length-256 vector cast to a 256-by-1 column has entry p at (p, 0): the two indices have the same row-major
    position. -/
theorem column_apply (v : FVec Ideal S256 .f32) (p : Fin 256) :
    shapeCast S256x1 v shapeCasts_S256_S256x1 (ix2 p 0) = v (ix1 p) :=
  shapeCast_apply v shapeCasts_S256_S256x1 (ix2 p 0) (ix1 p) (by
    rw [Shape.rowMajor_val_one, Shape.rowMajor_val_two]
    show p.val = p.val * 1 + 0
    omega)

/-- The lane sum of a 256-by-256 block, read at row p, is the sum of the row's 256 entries. -/
theorem lane_sum_apply (v : FVec Ideal S256x256 .f32) (p : Fin 256) :
    multiReduction (F := Ideal) .add [1] S256 v 0x00000000#32 reduces_S256x256_S256 (.inl rfl) rfl (ix1 p)
      = ∑ k : Fin 256, v (ix2 p k) :=
  (Ideal.multiReduction_add_single v 0x00000000#32 reduces_S256x256_S256 (.inl rfl) rfl (ix1 p)).trans
    (Finset.sum_congr rfl fun k _ => congrArg v
      (funext fun a => Fin.ext (by match a with | ⟨0, _⟩ => rfl | ⟨1, _⟩ => rfl)))

/-- A lane sum kept as a column, read at (p, 0). -/
theorem lane_sum_column (v : FVec Ideal S256x256 .f32) (p : Fin 256) :
    shapeCast S256x1 (multiReduction (F := Ideal) .add [1] S256 v 0x00000000#32 reduces_S256x256_S256 (.inl rfl) rfl)
        shapeCasts_S256_S256x1 (ix2 p 0)
      = ∑ k : Fin 256, v (ix2 p k) :=
  (column_apply _ p).trans (lane_sum_apply v p)

/-- THE BODY'S STORED VALUE at row p of the block is the loss of the block's row p. -/
theorem pay_row (x t : Vec Ideal S256x256 .f32) (p : Fin 256) :
    k0_pay1 (F := Ideal) x t (ix2 p 0) = rowLoss (fun k => x (ix2 p k)) (fun k => t (ix2 p k)) := by
  unfold k0_pay1 rowLoss
  dsimp only
  refine congrArg₂ Ideal.div (congrArg₂ (· * ·) ?_ ?_) (congrArg₂ (· * ·) ?_ (congrArg₂ (· - ·) rfl ?_))
  · refine (lane_sum_column _ p).trans (Finset.sum_congr rfl fun k _ => ?_)
    show t (ix2 p k) * Ideal.exp (Ideal.ofBits .f32 0x00000000#32 - x (ix2 p k)) = _
    rw [Ideal.ofBits_zero_f32]
  · exact (lane_sum_column _ p).trans (Finset.sum_congr rfl fun k _ => rfl)
  · exact lane_sum_column _ p
  · exact lane_sum_column _ p

end Cert.KernelIdeal.RowValue

end
-- ==== Proof.KernelArray.lean ====
/-
  The kernel's result array and result scalar, read at the extended reals.

  The grid has 8 points; point s works on rows 256·s … 256·s + 255: it is handed those rows of the scores and of the labels
  (two 256-by-256 blocks) and writes back a 256-by-1 block of the output column, row p of which is the loss of row
  256·s + p (`RowValue.pay_row`). The 8 blocks tile the 2048-by-1 output column, so after the run the column holds, at
  every row r, the loss of row r of the arguments. The one host operation after the kernel sums the column from 0: the
  result is the batch's loss `RankLoss.total` of the two argument arrays.
-/
import proofs.«115836_j20693152432248_1_alg».proof.Proof.Gen.KernelIdeal.Frame
import proofs.«115836_j20693152432248_1_alg».proof.Proof.KernelRow
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Cert.RankLoss Cert.KernelIdeal.RowValue

variable (m : (ℓ : Loc nD τ sig) → Buf (Elt Ideal) ℓ) (ρ : Dev nD → PrngReg)

/-- The row of an index of the output column, as a number below 2048. -/
def rowOf (i : S2048x1.Idx) : Fin 2048 := ⟨(i 0).val, idx2_lt0 i⟩

/-- The output column as a function of the score array and the label array: at row r, the loss of row r. -/
def lossColumn (x t : S2048x256.Idx → EReal) : S2048x1.Idx → EReal :=
  fun i => rowLoss (fun k => x (ix2 (rowOf i) k)) (fun k => t (ix2 (rowOf i) k))

theorem hz : (![0, 0] : Fin 2 → Nat) = fun _ => 0 := funext fun a => by fin_cases a <;> rfl

/-- The printed index maps, decided over the 8 grid points: each of the three windows is at block row s and block column 0
    at point s. -/
theorem index_facts : ∀ s : Fin cfg0.N, win0_0.index s (0 : Fin 2) = s.val ∧ win0_0.index s (1 : Fin 2) = 0
    ∧ win0_1.index s (0 : Fin 2) = s.val ∧ win0_1.index s (1 : Fin 2) = 0
    ∧ win0_2.index s (0 : Fin 2) = s.val ∧ win0_2.index s (1 : Fin 2) = 0 :=
  (by decide +kernel : ∀ s : Fin grid0.N, _)

/-- Row p of what the body stores, when row p of its two blocks is row r of two arrays: the loss of row r. -/
theorem block_row (A0 A1 : S2048x256.Idx → EReal) (x t : Vec Ideal S256x256 .f32) (r : Fin 2048) (p : Fin 256)
    (hx : ∀ k : Fin 256, x (ix2 p k) = A0 (ix2 r k)) (ht : ∀ k : Fin 256, t (ix2 p k) = A1 (ix2 r k)) :
    k0_pay1 (F := Ideal) x t (ix2 p 0) = rowLoss (fun k => A0 (ix2 r k)) (fun k => A1 (ix2 r k)) :=
  (pay_row x t p).trans (congrArg₂ rowLoss (funext hx) (funext ht))

/-- WHAT POINT s WRITES BACK is block s of the column of row losses of the argument arrays. -/
theorem flushed_eq (c : Dev nD) (s : Fin cfg0.N) :
    (dats m 0 c).flushed 2 s
      = ((cfg0.win 2).blk s).view.read (Elt Ideal) (lossColumn (V m c main_arg0) (V m c main_arg1)) := by
  show (cfg0.win 2).cut (grid0.coords s) ((dats m 0 c).after 2 s) = _
  rw [after0_2]
  unfold out0_2
  rw [View.canon_unit_zero hz]
  simp only [View.ld_unit_zero (S := S256x256) hz]
  obtain ⟨e00, e01, e10, e11, e20, e21⟩ := index_facts s
  funext j
  obtain ⟨p, q, rfl⟩ : ∃ (p : Fin 256) (q : Fin 1), j = ix2 p q := ⟨j 0, j 1, eq_ix2 j⟩
  obtain rfl : q = 0 := Subsingleton.elim _ _
  have hp : p.val < 256 := p.isLt
  have hs : s.val < 8 := by have := s.isLt; have hN : cfg0.N = 8 := N_0; omega
  refine block_row (V m c main_arg0) (V m c main_arg1) (iblk m c 0 s) (iblk m c 1 s)
    (rowOf (((cfg0.win 2).blk s).view.emb (ix2 p 0))) p (fun k => ?_) (fun k => ?_)
  · show V m c main_arg0 (((cfg0.win 0).blk s).view.emb (ix2 p k)) = _
    refine congrArg (V m c main_arg0) (funext fun a => Fin.ext ?_)
    match a with
    | ⟨0, _⟩ =>
      show win0_0.index s (0 : Fin 2) * 256 + 1 * p.val = win0_2.index s (0 : Fin 2) * 256 + 1 * p.val
      omega
    | ⟨1, _⟩ =>
      show win0_0.index s (1 : Fin 2) * 256 + 1 * k.val = k.val
      omega
  · show V m c main_arg1 (((cfg0.win 1).blk s).view.emb (ix2 p k)) = _
    refine congrArg (V m c main_arg1) (funext fun a => Fin.ext ?_)
    match a with
    | ⟨0, _⟩ =>
      show win0_1.index s (0 : Fin 2) * 256 + 1 * p.val = win0_2.index s (0 : Fin 2) * 256 + 1 * p.val
      omega
    | ⟨1, _⟩ =>
      show win0_1.index s (1 : Fin 2) * 256 + 1 * k.val = k.val
      omega

/-- An index of the output column is in point s's block iff each coordinate is in the block's range on its axis. -/
theorem mem_block (s : Fin cfg0.N) (i : S2048x1.Idx) :
    i ∈ ((cfg0.win 2).blk s).view.set ↔ ∀ a : Fin 2, win0_2.index s a * S256x1.size a ≤ (i a).val
      ∧ (i a).val < win0_2.index s a * S256x1.size a + S256x1.size a := by
  show i ∈ ((View.whole main_v0).slice (win0_2.rect s)).set ↔ _
  rw [View.set_slice_whole, Rect.mem_set_unit]
  exact Iff.rfl

/-- Every row of the output column is in the block of the point that works on it: row r is point r / 256's. -/
theorem covered (i : S2048x1.Idx) : ∃ s : Fin cfg0.N, (cfg0.win 2).flush s = true ∧ i ∈ ((cfg0.win 2).blk s).view.set := by
  have hi0 : (i 0).val < 2048 := idx2_lt0 i
  have hi1 : (i 1).val < 1 := idx2_lt1 i
  have hN : cfg0.N = 8 := N_0
  refine ⟨⟨(i 0).val / 256, by rw [hN]; omega⟩, flush0_2 _, ?_⟩
  rw [mem_block]
  obtain ⟨-, -, -, -, e20, e21⟩ := index_facts ⟨(i 0).val / 256, by rw [hN]; omega⟩
  intro a
  match a with
  | ⟨0, _⟩ =>
    show win0_2.index _ (0 : Fin 2) * 256 ≤ (i 0).val ∧ (i 0).val < win0_2.index _ (0 : Fin 2) * 256 + 256
    rw [e20]
    show (i 0).val / 256 * 256 ≤ (i 0).val ∧ (i 0).val < (i 0).val / 256 * 256 + 256
    omega
  | ⟨1, _⟩ =>
    show win0_2.index _ (1 : Fin 2) * 1 ≤ (i 1).val ∧ (i 1).val < win0_2.index _ (1 : Fin 2) * 1 + 1
    rw [e21]
    omega

/-- THE OUTPUT COLUMN after the run: at every row, the loss of that row of the argument arrays. -/
theorem column_eq (c : Dev nD) :
    (dats m 0 c).arrAt 2 cfg0.N = lossColumn (V m c main_arg0) (V m c main_arg1) :=
  (dats m 0 c).arrAt_eq_of_cover 2 (lossColumn (V m c main_arg0) (V m c main_arg1)) (fun s _ => flushed_eq m c s) covered

/-- THE RESULT SCALAR after the host's sum of the output column: the batch's loss of the argument arrays. -/
theorem result_eq (c : Dev nD) :
    Pipeline.afterTail₀ cfgs (dats m) 0 (V0 m) [hostOps1] c main_v1
      = fun _ => total (m ((c : Thread nD τ).loc main_arg0)) (m ((c : Thread nD τ).loc main_arg1)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.tc.devRef main_v0)
      = lossColumn (V m c main_arg0) (V m c main_arg1) :=
    (Pipeline.withArrays_arr spec0 launch0.win.arr_inj c _ _ 2).trans (column_eq m c)
  rw [hA]
  funext j
  simp only [Host.reduceAdd, Ideal.hostReduceAdd_def]
  rw [Ideal.hostReduceAdd_total reducesTo_S2048x1_S_d0_1 (fun b => b.elim0)]
  show Ideal.ofBits .f32 0x00000000#32 + _ = _
  rw [Ideal.ofBits_zero_f32, zero_add, sum_idx_col]
  exact Finset.sum_congr rfl fun a _ => rfl

/-- The result scalar is no window's array: the run's post states it among the buffers the host operations leave. -/
theorem result_mem : main_v1 ∈ Pipeline.restRefs sig (cfgs 0).spec :=
  Pipeline.mem_restRefs_of main_v1 rfl (fun w => by fin_cases w <;> decide)

/-- THE KERNEL'S RUN, read: every weakly fair execution terminates with the result scalar at the batch's loss of the
    argument arrays, and the arguments unchanged. -/
theorem run : θ_run defs (onTc (τ := τ) (main (F := Ideal))) ⟨m, fun _ => 0, ρ⟩ (fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v1 result_mem).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.ArrayValue

end
-- ==== Proof.FiniteInputs.lean ====
/-
  The precondition, read back: when `finite_inputs` of two arrays is all ones, every entry of both arrays is a real.

  The predicate is the conjunction of two `all`s, one per array, of the entrywise test |x| < +∞ (the bound is the float
  pattern of +∞, the extended real ⊤, and |x| is max x (-x)). A conjunction that is 1 has both conjuncts 1; an `all` that is 1
  has every entry's test 1; and an extended real whose absolute value is below ⊤ is neither ⊤ nor ⊥, so it is a real.
-/
import proofs.«115836_j20693152432248_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.FiniteInputs

open Idealize.ShloMosaic Idealize.ShloMosaic.ValueIdx Cert.Pre_finite_inputs

/-- The float pattern of +∞ is the extended real ⊤. -/
theorem inf_eq_top : Ideal.ofBits .f32 0x7F800000#32 = (⊤ : EReal) := by
  simp [Ideal.ofBits, Ideal.ieee]

/-- An extended real whose absolute value tests below +∞ is a real. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | top => simp [Ideal.cmp] at h
  | coe r => exact ⟨r, rfl⟩

instance : Subsingleton S_.Idx := ⟨fun a b => funext fun d => d.elim0⟩

variable [Cert.Pre_finite_inputs.Facts]

/-- THE PRECONDITION gives real entries: of both arrays, at every index. -/
theorem real_of_pre (x0 x1 : FVec Ideal S2048x256 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h' := congrFun h ix0
  dsimp only [Cert.Pre_finite_inputs.fn] at h'
  obtain ⟨ha, hb⟩ := IntOp.andi_eq_one.1 h'
  refine ⟨fun i => ?_, fun i => ?_⟩
  · have e := Host.reduce_andi_all _ _ _ _ ix0 ha i
    exact real_of_abs_lt_inf (x0 i) e
  · have e := Host.reduce_andi_all _ _ _ _ ix0 hb i
    exact real_of_abs_lt_inf (x1 i) e

end Cert.FiniteInputs

end
-- ==== Proof.lean ====
/-
  The certificate of the pairwise ranking loss kernel against its reference.

  Both programs take a 2048-by-256 array of scores x and a 2048-by-256 array of labels t and return one number, the sum
  over the rows b of

      ( ∑ over pairs (k, l) of  e^(-(x[b,k] - x[b,l])) · t[b,k] · (1 - t[b,l]) )  /  ( n_b · (256 - n_b) ),   n_b = ∑ t[b,·].

  The reference forms every pair. The kernel uses that the pair sum factors,

      ( ∑ k, t[b,k] · e^(0 - x[b,k]) ) · ( ∑ l, (1 - t[b,l]) · e^(x[b,l]) ),

  computes the two sums and n_b for 256 rows at each of 8 grid points, and leaves the final sum over the 2048 rows to one
  host operation. At the extended reals the two are equal when every entry is a real — which the precondition says:
  e^(-(a - b)) = e^(0 - a) · e^b and the distribution of a product over the two sums both need finite entries
  (`RankLoss.pair_sum_factor`). The divisor is the same expression on both sides, so the quotient's conventions at a zero
  divisor never enter. The kernel's side: `ArrayValue.run`; the reference's side: `RefValue.result_eq` over its run read
  back; the precondition read back: `FiniteInputs.real_of_pre`. The three frames are the programs' runs with the result
  dropped, and the idealization changed no operation.
-/
import proofs.«115836_j20693152432248_1_alg».proof.Defs
import proofs.«115836_j20693152432248_1_alg».proof.Proof.Gen.Kernel
import proofs.«115836_j20693152432248_1_alg».proof.Proof.Gen.Kernel.Skeleton
import proofs.«115836_j20693152432248_1_alg».proof.Proof.Gen.Kernel.Launch
import proofs.«115836_j20693152432248_1_alg».proof.Proof.Gen.Kernel.Points
import proofs.«115836_j20693152432248_1_alg».proof.Proof.Gen.Kernel.Frame
import proofs.«115836_j20693152432248_1_alg».proof.Proof.Gen.KernelIdeal
import proofs.«115836_j20693152432248_1_alg».proof.Proof.Gen.KernelIdeal.Skeleton
import proofs.«115836_j20693152432248_1_alg».proof.Proof.Gen.KernelIdeal.Launch
import proofs.«115836_j20693152432248_1_alg».proof.Proof.Gen.KernelIdeal.Points
import proofs.«115836_j20693152432248_1_alg».proof.Proof.Gen.KernelIdeal.Frame
import proofs.«115836_j20693152432248_1_alg».proof.Proof.Gen.ReferenceIdeal
import proofs.«115836_j20693152432248_1_alg».proof.Proof.Gen.Pre_finite_inputs
import proofs.«115836_j20693152432248_1_alg».proof.Proof.Gen.ReferenceIdeal.Run
import proofs.«115836_j20693152432248_1_alg».proof.Proof.Gen.ReferenceIdeal.Read
import proofs.«115836_j20693152432248_1_alg».proof.Proof.RankLossSpec
import proofs.«115836_j20693152432248_1_alg».proof.Proof.RefValue
import proofs.«115836_j20693152432248_1_alg».proof.Proof.KernelRow
import proofs.«115836_j20693152432248_1_alg».proof.Proof.KernelArray
import proofs.«115836_j20693152432248_1_alg».proof.Proof.FiniteInputs
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on finite arguments the idealized kernel and the idealized reference both end with the
    batch's loss of those arguments in their result: the kernel by its run read through the blocks and the host's sum,
    the reference by its run read operation by operation and the factorization of the pair sum on real entries. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ht⟩ := Cert.FiniteInputs.real_of_pre _ _ (hpre c)
  rw [Cert.ReferenceIdeal.Read.val_main_v21_eq, (hagree c).1, (hagree c).2]
  funext i
  exact Cert.ReferenceIdeal.RefValue.result_eq _ _ hx ht i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
